-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096x4096 : Shape := ⟨2, ![4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x4096 .f32) (main_arg1 : IVec S4x4096 1) (main_arg2 : FVec F S4096x4096 .f32) (main_arg3 : FVec F S4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4x4096x4096 : Shape := ⟨3, ![4, 4096, 4096]⟩
abbrev S4x4096 : Shape := ⟨2, ![4, 4096]⟩
abbrev S4096x4096 : Shape := ⟨2, ![4096, 4096]⟩
abbrev S16384x4096 : Shape := ⟨2, ![16384, 4096]⟩
abbrev S16384x1 : Shape := ⟨2, ![16384, 1]⟩
abbrev S2048x1 : Shape := ⟨2, ![2048, 1]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 12
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i1⟩
  | .hbm, ⟨2, _⟩ => ⟨S4096x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | .hbm, ⟨6, _⟩ => ⟨S16384x1, .i1⟩
  | .hbm, ⟨7, _⟩ => ⟨S16384x1, .f32⟩
  | .hbm, ⟨8, _⟩ => ⟨S4096x4096, .bf16⟩
  | .hbm, ⟨9, _⟩ => ⟨S4096x4096, .bf16⟩
  | .hbm, ⟨10, _⟩ => ⟨S16384x4096, .f32⟩
  | .hbm, ⟨11, _⟩ => ⟨S4x4096x4096, .f32⟩
  | .local _ .vmem, ⟨0, _⟩ => ⟨S2048x1, .f32⟩
  | .local _ .vmem, ⟨1, _⟩ => ⟨S2048x1, .f32⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x4096x4096_S16384x4096 : S4x4096x4096.ShapeCasts S16384x4096
  bitsLt_bf16_f32 : FTy.bits .bf16 < FTy.bits .f32
  shapeCasts_S4x4096_S16384x1 : S4x4096.ShapeCasts S16384x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S16384x4096_S4x4096x4096 : S16384x4096.ShapeCasts S4x4096x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S16384x1.size a
  hwx0_0 : ∀ i : grid0.Coords, EltTy.bits .f32 = 32 ∨ (Rect.block (s := S16384x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x4096.size a
  hwx0_1 : ∀ i : grid0.Coords, EltTy.bits .bf16 = 32 ∨ (Rect.block (s := S16384x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .bf16 = 32 ∨ (Rect.block (s := S4096x4096) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .bf16 = 32 ∨ (Rect.block (s := S4096x4096) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x4096.size a
  hwx0_4 : ∀ i : grid0.Coords, EltTy.bits .f32 = 32 ∨ (Rect.block (s := S16384x4096) S2048x1024.size (cc0_transform_4 i) (hinb0_4 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v3) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096x4096 : Shape := ⟨2, ![4096, 4096]⟩
abbrev S4x4096x1 : Shape := ⟨3, ![4, 4096, 1]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i1⟩
  | .hbm, ⟨2, _⟩ => ⟨S4096x4096, .f32⟩
  | .hbm, ⟨3, _⟩ => ⟨S4096x4096, .f32⟩
  | .hbm, ⟨4, _⟩ => ⟨S4x4096x4096, .f32⟩
  | .hbm, ⟨5, _⟩ => ⟨S4x4096x4096, .f32⟩
  | .hbm, ⟨6, _⟩ => ⟨S4x4096x1, .i1⟩
  | .hbm, ⟨7, _⟩ => ⟨S4x4096x4096, .i1⟩
  | .hbm, ⟨8, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Step.lean ====
/-
  What one grid point leaves in the accumulator.

  The grid walks the 8 slabs of the contracted axis fastest. At every point the body adds to the accumulator block
  (2048 × 1024) first the masked rows of the point's `x` block against its `Wv` block, then the unmasked remainder
  against its `Wt` block (`step`). At the first slab of a sweep it stores a block of zeros into the accumulator
  before that; at the last slab it copies the updated accumulator into the output block. The lemmas below read the
  stores each of the three cases makes back as values: every store covers the whole block, so the last one decides,
  and a load after a store reads what was stored.
-/
import proofs.«173502_j34789235097626_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Moe

open Cert.KernelIdeal Cert.KernelIdeal.Gen

variable {F : FTy → Type} [FloatOps F]

theorem hz : (![0, 0] : Fin 2 → Nat) = fun _ => 0 := funext fun a => by fin_cases a <;> rfl

/-- One grid point's update of the accumulator `a`: the masked rows of the `x` block against the `Wv` block are
    added first, then the unmasked remainder against the `Wt` block. -/
def step (x0 : Vec F S2048x1 .f32) (x1 : Vec F S2048x512 .bf16) (x2 x3 : Vec F S1024x512 .bf16)
    (a : Vec F S2048x1024 .f32) : Vec F S2048x1024 .f32 :=
  k0_pay5 x1 x0 x3 (k0_pay4 x1 x0 x2 a)

/-- The block of zeros the first point of a sweep stores into the accumulator. -/
abbrev zeros : Vec F S2048x1024 .f32 := k0_pay1

/-- A point in the middle of a sweep over the contracted axis leaves, in the accumulator that held `xs0`, one update
    of it by the point's blocks. -/
theorem sout_B (c : Dev nD) (i : grid0.Coords) (a3 : Memref sig .tc .vmem S2048x1 .f32) (h3 : a3.IsWhole)
    (a4 : Memref sig .tc .vmem S2048x512 .bf16) (h4 : a4.IsWhole) (a5 : Memref sig .tc .vmem S1024x512 .bf16) (h5 : a5.IsWhole)
    (a6 : Memref sig .tc .vmem S1024x512 .bf16) (h6 : a6.IsWhole) (a7 : Memref sig .tc .vmem S2048x1024 .f32) (h7 : a7.IsWhole)
    (a8 : Memref sig .tc .vmem S2048x1024 .f32) (h8 : a8.IsWhole) (hc0 : ¬cond0_0 i) (hc1 : ¬cond0_1 i)
    (x0 : Vec F S2048x1 .f32) (x1 : Vec F S2048x512 .bf16) (x2 x3 : Vec F S1024x512 .bf16) (xs0 : Vec F S2048x1024 .f32) :
    sout0_B_0 c i a3 h3 a4 h4 a5 h5 a6 h6 a7 h7 a8 h8 hc0 hc1 x0 x1 x2 x3 xs0 = step x0 x1 x2 x3 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h8.read_unread,
    View.ld_unit_zero (S := S2048x1024) hz, View.ld_unit_zero (S := S2048x512) hz, View.ld_unit_zero (S := S1024x512) hz,
    View.ld_unit_zero (S := S2048x1) hz]
  rfl

/-- The last point of a sweep leaves the same update in the accumulator, -/
theorem sout_C (c : Dev nD) (i : grid0.Coords) (a3 : Memref sig .tc .vmem S2048x1 .f32) (h3 : a3.IsWhole)
    (a4 : Memref sig .tc .vmem S2048x512 .bf16) (h4 : a4.IsWhole) (a5 : Memref sig .tc .vmem S1024x512 .bf16) (h5 : a5.IsWhole)
    (a6 : Memref sig .tc .vmem S1024x512 .bf16) (h6 : a6.IsWhole) (a7 : Memref sig .tc .vmem S2048x1024 .f32) (h7 : a7.IsWhole)
    (a8 : Memref sig .tc .vmem S2048x1024 .f32) (h8 : a8.IsWhole) (hc0 : ¬cond0_0 i) (hc1 : cond0_1 i)
    (x0 : Vec F S2048x1 .f32) (x1 : Vec F S2048x512 .bf16) (x2 x3 : Vec F S1024x512 .bf16) (xs0 : Vec F S2048x1024 .f32) :
    sout0_C_0 c i a3 h3 a4 h4 a5 h5 a6 h6 a7 h7 a8 h8 hc0 hc1 x0 x1 x2 x3 xs0 = step x0 x1 x2 x3 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_cons_unit_zero (S := S2048x1024) hz, View.readCov_unit_zero (S := S2048x1024) _ hz]
  simp only [View.readAt_eq_ld, h3.read_unread, h4.read_unread, h5.read_unread, h6.read_unread, h8.read_unread,
    View.ld_unit_zero (S := S2048x1024) hz, View.ld_unit_zero (S := S2048x512) hz, View.ld_unit_zero (S := S1024x512) hz,
    View.ld_unit_zero (S := S2048x1) hz]
  rfl

/-- and copies the accumulator, so updated, into the output block. -/
theorem out_C (c : Dev nD) (i : grid0.Coords) (a3 : Memref sig .tc .vmem S2048x1 .f32) (h3 : a3.IsWhole)
    (a4 : Memref sig .tc .vmem S2048x512 .bf16) (h4 : a4.IsWhole) (a5 : Memref sig .tc .vmem S1024x512 .bf16) (h5 : a5.IsWhole)
    (a6 : Memref sig .tc .vmem S1024x512 .bf16) (h6 : a6.IsWhole) (a7 : Memref sig .tc .vmem S2048x1024 .f32) (h7 : a7.IsWhole)
    (a8 : Memref sig .tc .vmem S2048x1024 .f32) (h8 : a8.IsWhole) (hc0 : ¬cond0_0 i) (hc1 : cond0_1 i)
    (x0 : Vec F S2048x1 .f32) (x1 : Vec F S2048x512 .bf16) (x2 x3 : Vec F S1024x512 .bf16) (xs0 : Vec F S2048x1024 .f32) :
    out0_C_4 c i a3 h3 a4 h4 a5 h5 a6 h6 a7 h7 a8 h8 hc0 hc1 x0 x1 x2 x3 xs0 = step x0 x1 x2 x3 xs0 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz, View.readCov_cons_toLoadRect, View.readCov_cons_toLoadRect]
  simp only [View.readAt_eq_ld, h3.read_unread, h4.read_unread, h5.read_unread, h6.read_unread, h8.read_unread,
    View.ld_unit_zero (S := S2048x1024) hz, View.ld_unit_zero (S := S2048x512) hz, View.ld_unit_zero (S := S1024x512) hz,
    View.ld_unit_zero (S := S2048x1) hz]
  rfl

/-- The first point of a sweep stores zeros into the accumulator and then updates it. -/
theorem sout_A (c : Dev nD) (i : grid0.Coords) (a3 : Memref sig .tc .vmem S2048x1 .f32) (h3 : a3.IsWhole)
    (a4 : Memref sig .tc .vmem S2048x512 .bf16) (h4 : a4.IsWhole) (a5 : Memref sig .tc .vmem S1024x512 .bf16) (h5 : a5.IsWhole)
    (a6 : Memref sig .tc .vmem S1024x512 .bf16) (h6 : a6.IsWhole) (a7 : Memref sig .tc .vmem S2048x1024 .f32) (h7 : a7.IsWhole)
    (a8 : Memref sig .tc .vmem S2048x1024 .f32) (h8 : a8.IsWhole) (hc0 : cond0_0 i) (hc1 : ¬cond0_1 i)
    (x0 : Vec F S2048x1 .f32) (x1 : Vec F S2048x512 .bf16) (x2 x3 : Vec F S1024x512 .bf16) :
    sout0_A_0 c i a3 h3 a4 h4 a5 h5 a6 h6 a7 h7 a8 h8 hc0 hc1 x0 x1 x2 x3 = step x0 x1 x2 x3 zeros := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S2048x1024) hz, View.readCov_cons_toLoadRect, View.readCov_cons_toLoadRect]
  simp only [View.readAt_eq_ld, h3.read_unread, h4.read_unread, h5.read_unread, h6.read_unread, h8.read_unread,
    View.ld_unit_zero (S := S2048x1024) hz, View.ld_unit_zero (S := S2048x512) hz, View.ld_unit_zero (S := S1024x512) hz,
    View.ld_unit_zero (S := S2048x1) hz]
  rfl

end Cert.KernelIdeal.Moe

end
-- ==== Proof.Chain.lean ====
/-
  The accumulator from one grid point to the next.

  The grid has 256 points, the slab index `t % 8` fastest. What the run recorded after point `t` — the carried
  accumulator, and the output block — is: at the first slab of a sweep (`t % 8 = 0`) one update, by the point's
  blocks, of a block of zeros; at every other point one update of what the point before left; and after the last slab
  of a sweep (`t % 8 = 7`) the output block is a copy of the accumulator.
-/
import proofs.«173502_j34789235097626_2_alg».proof.Proof.Step

set_option maxRecDepth 16384

noncomputable section

open Idealize.ShloMosaic Idealize.ShloMosaic.TcCoe Idealize.SL.Sem
open Idealize.ShloMosaic.Pipeline (Dat)

namespace Cert.KernelIdeal.Moe

open Cert.KernelIdeal Cert.KernelIdeal.Gen

variable {F : FTy → Type} [FloatOps F]
variable (m : (ℓ : Loc nD τ sig) → Buf (Elt F) ℓ)

/-- At the first slab of a sweep the accumulator is one update of zeros. -/
theorem acc_first (c : Dev nD) (t : Fin cfg0.N) (h0 : t.val % 8 = 0) :
    (outsAt0 m c t.val t.isLt).2 = step (iblk m c 0 t) (iblk m c 1 t) (iblk m c 2 t) (iblk m c 3 t) zeros := by
  have h1 : ¬t.val % 8 = 7 := by omega
  rw [outsAt0_A m c t h0 h1]
  dsimp only
  exact sout_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every other point it is one update of what the point before left. -/
theorem acc_next (c : Dev nD) (t : Fin cfg0.N) (h0 : ¬t.val % 8 = 0) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 := by
  by_cases h1 : t.val % 8 = 7
  · rw [outsAt0_C m c t h0 h1]
    dsimp only
    exact sout_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact sout_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After the last slab of a sweep the output block is the same update: a copy of the accumulator. -/
theorem out_last (c : Dev nD) (t : Fin cfg0.N) (h7 : t.val % 8 = 7) :
    (outsAt0 m c t.val t.isLt).1 = step (iblk m c 0 t) (iblk m c 1 t) (iblk m c 2 t) (iblk m c 3 t) (outsAt0 m c (t.val - 1) (Nat.lt_of_le_of_lt (Nat.sub_le _ _) t.isLt)).2 := by
  have h0 : ¬t.val % 8 = 0 := by omega
  rw [outsAt0_C m c t h0 h7]
  dsimp only
  exact out_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2

end Cert.KernelIdeal.Moe

end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.LibColumns.lean ====
/-
  Column vectors among matrices, read at explicit coordinates.

  A sum or a maximum taken along the rows of a matrix with the reduced axis kept comes back as an `a × 1` column:
  the length-`a` result reshaped to a column, and later spread across the columns of a matrix again. Read at an
  index: the reshaped column's entry `(i, u)` is the vector's entry `i`; the column spread to `a × b` has, at
  `(p, c)`, the column's entry `(p, 0)`. Also here: the sum over the one index of a single-axis contraction, with
  the two operands' indices along the contracted axis named by the caller.
-/
import Idealize.ShloMosaic.Lib.ValueIdx
import Idealize.ShloMosaic.Lib.Pipeline.Value
import Idealize.ShloMosaic.PureOps.Ideal.Laws

namespace Cert.LibColumns

open Idealize.ShloMosaic Idealize.ShloMosaic.ValueIdx

variable {α : Type}

/-- A length-`a` vector reshaped to an `a × 1` column: entry `(i, u)` is the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column spread across `b` columns: entry `(p, c)` is the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over a one-axis contraction's index, re-indexed by the contracted coordinate `k`: the caller names the
    two operands' indices at each `k`. -/
theorem sum_contr1 {sl sr so : Shape} (D : DotDims sl sr so) (K : ℕ) (hr : D.contr.rank = 1)
    (hs : D.contr.size ⟨0, by omega⟩ = K) (l : sl.Idx → EReal) (r : sr.Idx → EReal) (j : so.Idx)
    (L : Fin K → sl.Idx) (R : Fin K → sr.Idx)
    (hl : ∀ k : Fin K, D.lhsIdx j ((contrEquiv1 D K hr hs).symm k) = L k)
    (hr' : ∀ k : Fin K, D.rhsIdx j ((contrEquiv1 D K hr hs).symm k) = R k) :
    ∑ q : D.contr.Idx, l (D.lhsIdx j q) * r (D.rhsIdx j q) = ∑ k : Fin K, l (L k) * r (R k) := by
  rw [← Equiv.sum_comp (contrEquiv1 D K hr hs).symm]
  exact Finset.sum_congr rfl fun k _ => by rw [hl k, hr' k]

end Cert.LibColumns
-- ==== Proof.StepValue.lean ====
/-
  One update of the accumulator, read one entry at a time on the extended reals.

  The block of `x` has 2048 rows and 512 of the contracted columns; the mask block is a 2048 × 1 column `μ`; the two
  weight blocks have 1024 rows (output columns) and the same 512 contracted columns. Entry `(r, o)` of the updated
  accumulator is the old entry, plus the sum over the 512 columns `d` of `(x (r, d) · μ r) · Wv (o, d)`, plus the sum
  over `d` of `(x (r, d) − x (r, d) · μ r) · Wt (o, d)`: a change of float format is the identity, a product into a
  block of zeros is the plain sum of products, and the mask column spread across the columns is `μ r` everywhere.
-/
import proofs.«173502_j34789235097626_2_alg».proof.Proof.Step
import proofs.«173502_j34789235097626_2_alg».proof.Proof.LibDense
import proofs.«173502_j34789235097626_2_alg».proof.Proof.LibColumns
import Idealize.ShloMosaic.PureOps.Ideal.Laws
import Idealize.ShloMosaic.Lib.ValueIdx

noncomputable section

open Idealize.ShloMosaic Idealize.ShloMosaic.ValueIdx

namespace Cert.KernelIdeal.Moe

open Cert.KernelIdeal Cert.KernelIdeal.Gen

/-- The contraction of the kernel's two products: the second axis of both operands. -/
abbrev dd : DotDims S2048x512 S1024x512 S2048x1024 := dot_S2048x512_S1024x512_S2048x1024_1_1_0_0_n_n

theorem dd_l0 (i : S2048x1024.Idx) (q : dd.contr.Idx) : (dd.lhsIdx i q 0).val = (i 0).val := by
  unfold DotDims.lhsIdx
  rw [dif_neg (show ¬(0 : Fin S2048x512.rank) ∈ dd.lhsBatch by decide), dif_pos (show (0 : Fin S2048x512.rank) ∈ dd.lhsNonContracting by decide)]
  rfl
theorem dd_l1 (i : S2048x1024.Idx) (q : dd.contr.Idx) : (dd.lhsIdx i q 1).val = (q ⟨0, by decide⟩).val :=
  dd.lhsIdx_val_of_single rfl i q
theorem dd_r0 (i : S2048x1024.Idx) (q : dd.contr.Idx) : (dd.rhsIdx i q 0).val = (i 1).val := by
  unfold DotDims.rhsIdx
  rw [dif_neg (show ¬(0 : Fin S1024x512.rank) ∈ dd.rhsBatch by decide), dif_pos (show (0 : Fin S1024x512.rank) ∈ dd.rhsNonContracting by decide)]
  rfl
theorem dd_r1 (i : S2048x1024.Idx) (q : dd.contr.Idx) : (dd.rhsIdx i q 1).val = (q ⟨0, by decide⟩).val :=
  dd.rhsIdx_val_of_single rfl i q

/-- A product of a 2048 × 512 block with the transpose of a 1024 × 512 block into a block of zeros: entry `(r, o)`
    is the sum over the 512 shared columns. -/
theorem prod_apply (l : FVec Ideal S2048x512 .bf16) (w : FVec Ideal S1024x512 .bf16) (r : Fin 2048) (o : Fin 1024) :
    (matmul (F := Ideal) dot_S2048x512_S1024x512_S2048x1024_1_1_0_0_n_n none l w (constant (F := Ideal) S2048x1024 .f32 0x00000000#32) (ix2 r o) : EReal)
      = ∑ d : Fin 512, (l (ix2 r d) * w (ix2 o d) : EReal) := by
  show (FloatOps.matmul (F := Ideal) dd none l w (constant (F := Ideal) S2048x1024 .f32 0x00000000#32) (ix2 r o) : EReal) = _
  rw [Ideal.matmul_constant_zero_apply]
  exact Cert.LibDense.sum_contr_eq_mmT dd rfl rfl dd_l0 dd_l1 dd_r0 dd_r1 l w (ix2 r o)

/-- The masked block: entry `(r, d)` is `x (r, d) · μ r`. -/
theorem masked_apply (x0 : FVec Ideal S2048x1 .f32) (x1 : FVec Ideal S2048x512 .bf16) (r : Fin 2048) (d : Fin 512) :
    (k0_pay3 (F := Ideal) x1 x0 (ix2 r d) : EReal) = x1 (ix2 r d) * x0 (ix2 r (0 : Fin 1)) := by
  unfold k0_pay3 k0_pay2
  try dsimp only
  simp only [shapeCast_self]
  rw [mulf_apply, Cert.LibColumns.broadcastTo_a1_ab_apply, truncf_apply]

/-- The first half of an update: the masked block against the `Wv` block, added to the accumulator. -/
theorem half_v_apply (x0 : FVec Ideal S2048x1 .f32) (x1 : FVec Ideal S2048x512 .bf16) (x2 : FVec Ideal S1024x512 .bf16)
    (a : FVec Ideal S2048x1024 .f32) (r : Fin 2048) (o : Fin 1024) :
    (k0_pay4 (F := Ideal) x1 x0 x2 a (ix2 r o) : EReal)
      = a (ix2 r o) + ∑ d : Fin 512, (x1 (ix2 r d) * x0 (ix2 r (0 : Fin 1))) * x2 (ix2 o d) := by
  unfold k0_pay4
  try dsimp only
  simp only [shapeCast_self]
  rw [addf_apply, prod_apply]
  simp only [masked_apply]

/-- The second half: the unmasked remainder against the `Wt` block, added to the accumulator. -/
theorem half_t_apply (x0 : FVec Ideal S2048x1 .f32) (x1 : FVec Ideal S2048x512 .bf16) (x3 : FVec Ideal S1024x512 .bf16)
    (a : FVec Ideal S2048x1024 .f32) (r : Fin 2048) (o : Fin 1024) :
    (k0_pay5 (F := Ideal) x1 x0 x3 a (ix2 r o) : EReal)
      = a (ix2 r o) + ∑ d : Fin 512, (x1 (ix2 r d) - x1 (ix2 r d) * x0 (ix2 r (0 : Fin 1))) * x3 (ix2 o d) := by
  unfold k0_pay5
  try dsimp only
  simp only [shapeCast_self]
  rw [addf_apply, prod_apply]
  refine congrArg (a (ix2 r o) + ·) (Finset.sum_congr rfl fun d _ => ?_)
  rw [subf_apply, masked_apply]
  unfold k0_pay2
  try dsimp only
  rw [shapeCast_self]

/-- One whole update at entry `(r, o)`. -/
theorem step_apply (x0 : FVec Ideal S2048x1 .f32) (x1 : FVec Ideal S2048x512 .bf16) (x2 x3 : FVec Ideal S1024x512 .bf16)
    (a : FVec Ideal S2048x1024 .f32) (r : Fin 2048) (o : Fin 1024) :
    (step (F := Ideal) x0 x1 x2 x3 a (ix2 r o) : EReal)
      = (a (ix2 r o) + ∑ d : Fin 512, (x1 (ix2 r d) * x0 (ix2 r (0 : Fin 1))) * x2 (ix2 o d))
          + ∑ d : Fin 512, (x1 (ix2 r d) - x1 (ix2 r d) * x0 (ix2 r (0 : Fin 1))) * x3 (ix2 o d) := by
  unfold step
  rw [half_t_apply, half_v_apply]

/-- The block of zeros the first point of a sweep stores: every entry is the number zero. -/
theorem zeros_apply (j : S2048x1024.Idx) : ((zeros (F := Ideal)) j : EReal) = 0 := by
  unfold zeros k0_pay1
  try dsimp only
  rw [shapeCast_self, broadcast_apply]
  exact Ideal.ofBits_zero_f32

end Cert.KernelIdeal.Moe

end
-- ==== Proof.Spec.lean ====
/-
  The mathematics of a mask-routed pair of linear maps, on the extended reals.

  Every row of `x` is multiplied against the rows of one of two weight matrices: `Wv` where the row's mask bit is
  set, `Wt` where it is not. Written with the bit `μ ∈ {0, 1}` as a number, row `R` contributes
  `(x·μ)·Wvᵀ + (x − x·μ)·Wtᵀ`, and the 4096 columns may be summed in 8 consecutive slabs of 512. This file states
  the slab form (`slab`, `tiled`), the routed form (`routed`), and proves them equal entry by entry when the
  entries of `x` are real numbers: for `μ = 1` the second summand is `(x − x)·Wt = 0`, for `μ = 0` the first is
  `(x·0)·Wv = 0`, and consecutive slabs of a sum over `Fin 4096` add up to the whole sum.
-/
import Idealize.ShloMosaic.PureOps.Ideal.Laws
import Idealize.ShloMosaic.Lib.ValueIdx

noncomputable section

namespace Cert.MoeSpec

open Idealize.ShloMosaic Idealize.ShloMosaic.ValueIdx

/-- Entry `(R, D)` of a matrix at natural-number coordinates; zero outside the matrix. -/
def at2 {n0 n1 : ℕ} (A : (⟨2, ![n0, n1]⟩ : Shape).Idx → EReal) (R D : ℕ) : EReal :=
  if h : R < n0 ∧ D < n1 then A (ix2 ⟨R, h.1⟩ ⟨D, h.2⟩) else 0

theorem at2_of_lt {n0 n1 : ℕ} (A : (⟨2, ![n0, n1]⟩ : Shape).Idx → EReal) (R D : ℕ) (hR : R < n0) (hD : D < n1) :
    at2 A R D = A (ix2 ⟨R, hR⟩ ⟨D, hD⟩) := dif_pos ⟨hR, hD⟩

theorem at2_val {n0 n1 : ℕ} (A : (⟨2, ![n0, n1]⟩ : Shape).Idx → EReal) (a : Fin n0) (b : Fin n1) :
    at2 A a.val b.val = A (ix2 a b) := dif_pos ⟨a.isLt, b.isLt⟩

/-- What the `k`-th slab of 512 columns adds to entry `(R, O)`: with `μ` the row's mask entry (column 0 of `A0`),
    the masked row of `A1` against row `O` of `A2`, plus the unmasked remainder against row `O` of `A3`. -/
def slab (A0 : (⟨2, ![16384, 1]⟩ : Shape).Idx → EReal) (A1 : (⟨2, ![16384, 4096]⟩ : Shape).Idx → EReal)
    (A2 A3 : (⟨2, ![4096, 4096]⟩ : Shape).Idx → EReal) (R O k : ℕ) : EReal :=
  ∑ d : Fin 512, (at2 A1 R (512 * k + d.val) * at2 A0 R 0) * at2 A2 O (512 * k + d.val)
    + ∑ d : Fin 512, (at2 A1 R (512 * k + d.val) - at2 A1 R (512 * k + d.val) * at2 A0 R 0) * at2 A3 O (512 * k + d.val)

/-- The product accumulated slab by slab: entry `(R, O)` is the sum of the 8 slabs' contributions. -/
def tiled (A0 : (⟨2, ![16384, 1]⟩ : Shape).Idx → EReal) (A1 : (⟨2, ![16384, 4096]⟩ : Shape).Idx → EReal)
    (A2 A3 : (⟨2, ![4096, 4096]⟩ : Shape).Idx → EReal) : (⟨2, ![16384, 4096]⟩ : Shape).Idx → EReal :=
  fun i => ∑ k ∈ Finset.range 8, slab A0 A1 A2 A3 (i 0).val (i 1).val k

/-- The routed product: row `(b, s)` of `x` against row `o` of `Wv` where the mask bit of `(b, s)` is set, of `Wt`
    where it is not. -/
def routed (x : (⟨3, ![4, 4096, 4096]⟩ : Shape).Idx → EReal) (mk : (⟨2, ![4, 4096]⟩ : Shape).Idx → BitVec 1)
    (wv wt : (⟨2, ![4096, 4096]⟩ : Shape).Idx → EReal) : (⟨3, ![4, 4096, 4096]⟩ : Shape).Idx → EReal :=
  fun i => Scalar.select (mk (ix2 (i 0) (i 1)))
    (∑ D : Fin 4096, x (ix3 (i 0) (i 1) D) * wv (ix2 (i 2) D))
    (∑ D : Fin 4096, x (ix3 (i 0) (i 1) D) * wt (ix2 (i 2) D))

/-- Consecutive slabs of width `n` of a sum over `m · n` terms add up to the whole sum. -/
theorem sum_slabs {M : Type*} [AddCommMonoid M] (m n : ℕ) (f : ℕ → M) :
    ∑ k ∈ Finset.range m, ∑ d : Fin n, f (n * k + d.val) = ∑ D : Fin (m * n), f D.val := by
  rw [← Fin.sum_univ_eq_sum_range (fun k => ∑ d : Fin n, f (n * k + d.val)) m]
  rw [← Equiv.sum_comp finProdFinEquiv (fun D : Fin (m * n) => f D.val), Fintype.sum_prod_type]
  refine Finset.sum_congr rfl fun k _ => Finset.sum_congr rfl fun d _ => ?_
  show f (n * k.val + d.val) = f (d.val + n * k.val)
  rw [Nat.add_comm]

/-- A bit is zero or one. -/
theorem bit_cases (μ : BitVec 1) : μ = 0#1 ∨ μ = 1#1 := by
  revert μ; decide

/-- THE LAW. For a row `xr` of real numbers and a bit `μ` read as the number 0 or 1, the slab-wise sum of
    `(xr·μ)·vr + (xr − xr·μ)·tr` is the whole product with `vr` when the bit is set and with `tr` when it is not. -/
theorem slabs_eq_select (μ : BitVec 1) (xr vr tr : ℕ → EReal) (hx : ∀ D, ∃ r : ℝ, xr D = (r : EReal)) :
    ∑ k ∈ Finset.range 8,
        (∑ d : Fin 512, (xr (512 * k + d.val) * ((μ.toNat : ℝ) : EReal)) * vr (512 * k + d.val)
          + ∑ d : Fin 512, (xr (512 * k + d.val) - xr (512 * k + d.val) * ((μ.toNat : ℝ) : EReal)) * tr (512 * k + d.val))
      = Scalar.select μ (∑ D : Fin 4096, xr D.val * vr D.val) (∑ D : Fin 4096, xr D.val * tr D.val) := by
  rcases bit_cases μ with rfl | rfl
  · have h0 : (((0#1 : BitVec 1).toNat : ℝ) : EReal) = 0 := by simp
    rw [h0]
    simp only [mul_zero, zero_mul, Finset.sum_const_zero, zero_add, sub_zero]
    rw [show Scalar.select (0#1 : BitVec 1) (∑ D : Fin 4096, xr D.val * vr D.val) (∑ D : Fin 4096, xr D.val * tr D.val)
      = ∑ D : Fin 4096, xr D.val * tr D.val from if_neg (by decide)]
    exact sum_slabs 8 512 fun D => xr D * tr D
  · have h1 : (((1#1 : BitVec 1).toNat : ℝ) : EReal) = 1 := by simp
    rw [h1]
    have hs : ∀ D, xr D - xr D = 0 := fun D => by
      obtain ⟨r, hr⟩ := hx D
      rw [hr, ← EReal.coe_sub, sub_self, EReal.coe_zero]
    simp only [mul_one, hs, zero_mul, Finset.sum_const_zero, add_zero]
    rw [show Scalar.select (1#1 : BitVec 1) (∑ D : Fin 4096, xr D.val * vr D.val) (∑ D : Fin 4096, xr D.val * tr D.val)
      = ∑ D : Fin 4096, xr D.val * vr D.val from if_pos rfl]
    exact sum_slabs 8 512 fun D => xr D * vr D

end Cert.MoeSpec

end
-- ==== Proof.Blocks.lean ====
/-
  The blocks a grid point works on, as entries of the whole arrays.

  Point `t` of the grid is the triple (row block `t / 32`, output-column block `(t / 8) % 4`, slab `t % 8`). Its mask
  block is rows `2048·(t/32) …` of the mask column; its `x` block is those rows and columns `512·(t%8) …` of `x`; its
  two weight blocks are rows `1024·((t/8)%4) …` and the same 512 columns of `Wv` and `Wt`; its output block is rows
  `2048·(t/32) …` and columns `1024·((t/8)%4) …` of the result. An entry of a block is the array's entry at block
  index × block size + the coordinate inside the block.
-/
import proofs.«173502_j34789235097626_2_alg».proof.Proof.Gen.KernelIdeal.Frame
import proofs.«173502_j34789235097626_2_alg».proof.Proof.Spec
import Idealize.ShloMosaic.Lib.Pipeline.Value
import Idealize.ShloMosaic.Lib.ValueIdx
import Idealize.ShloMosaic.PureOps.Ideal

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Moe

open Cert.KernelIdeal Cert.KernelIdeal.Gen Cert.MoeSpec

variable (m : (ℓ : Loc nD τ sig) → Buf (Elt Ideal) ℓ)

/-- The five windows' block indices at point `t`, decided over the 256 points of the grid. -/
theorem idx_facts : ∀ t : Fin cfg0.N,
    win0_0.index t (0 : Fin 2) = t.val / 32 ∧ win0_0.index t (1 : Fin 2) = 0
    ∧ win0_1.index t (0 : Fin 2) = t.val / 32 ∧ win0_1.index t (1 : Fin 2) = t.val % 8
    ∧ win0_2.index t (0 : Fin 2) = t.val / 8 % 4 ∧ win0_2.index t (1 : Fin 2) = t.val % 8
    ∧ win0_3.index t (0 : Fin 2) = t.val / 8 % 4 ∧ win0_3.index t (1 : Fin 2) = t.val % 8
    ∧ win0_4.index t (0 : Fin 2) = t.val / 32 ∧ win0_4.index t (1 : Fin 2) = t.val / 8 % 4 :=
  (by decide +kernel : ∀ t : Fin grid0.N, _)

/-- The mask block: row `p` is row `2048·(t/32) + p` of the mask column. -/
theorem blk_mask (c : Dev nD) (t : Fin cfg0.N) (p : Fin 2048) (q : Fin 1) :
    (iblk m c 0 t (ix2 p q) : EReal)
      = at2 (V m c main_v3 : S16384x1.Idx → EReal) (2048 * (t.val / 32) + p.val) (q.val) := by
  have hN : t.val < 256 := lt_of_lt_of_eq t.isLt (show cfg0.N = 256 from N_0)
  have hp := p.isLt
  have hq := q.isLt
  obtain ⟨e00, e01, e10, e11, e20, e21, e30, e31, e40, e41⟩ := idx_facts t
  rw [at2_of_lt _ _ _ (by omega) (by omega)]
  unfold iblk
  rw [View.read_apply]
  show (V m c main_v3 : S16384x1.Idx → EReal) _ = (V m c main_v3 : S16384x1.Idx → EReal) _
  congr 1
  funext a
  apply Fin.ext
  match a with
  | ⟨0, _⟩ => show win0_0.index t (0 : Fin 2) * 2048 + 1 * p.val = 2048 * (t.val / 32) + p.val; rw [e00]; omega
  | ⟨1, _⟩ => show win0_0.index t (1 : Fin 2) * 1 + 1 * q.val = q.val; rw [e01]; omega

/-- The `x` block: entry `(p, q)` is entry `(2048·(t/32) + p, 512·(t%8) + q)` of `x`. -/
theorem blk_x (c : Dev nD) (t : Fin cfg0.N) (p : Fin 2048) (q : Fin 512) :
    (iblk m c 1 t (ix2 p q) : EReal)
      = at2 (V m c main_v1 : S16384x4096.Idx → EReal) (2048 * (t.val / 32) + p.val) (512 * (t.val % 8) + q.val) := by
  have hN : t.val < 256 := lt_of_lt_of_eq t.isLt (show cfg0.N = 256 from N_0)
  have hp := p.isLt
  have hq := q.isLt
  obtain ⟨e00, e01, e10, e11, e20, e21, e30, e31, e40, e41⟩ := idx_facts t
  rw [at2_of_lt _ _ _ (by omega) (by omega)]
  unfold iblk
  rw [View.read_apply]
  show (V m c main_v1 : S16384x4096.Idx → EReal) _ = (V m c main_v1 : S16384x4096.Idx → EReal) _
  congr 1
  funext a
  apply Fin.ext
  match a with
  | ⟨0, _⟩ => show win0_1.index t (0 : Fin 2) * 2048 + 1 * p.val = 2048 * (t.val / 32) + p.val; rw [e10]; omega
  | ⟨1, _⟩ => show win0_1.index t (1 : Fin 2) * 512 + 1 * q.val = 512 * (t.val % 8) + q.val; rw [e11]; omega

/-- The `Wv` block: entry `(p, q)` is entry `(1024·((t/8)%4) + p, 512·(t%8) + q)` of `Wv`. -/
theorem blk_wv (c : Dev nD) (t : Fin cfg0.N) (p : Fin 1024) (q : Fin 512) :
    (iblk m c 2 t (ix2 p q) : EReal)
      = at2 (V m c main_v4 : S4096x4096.Idx → EReal) (1024 * (t.val / 8 % 4) + p.val) (512 * (t.val % 8) + q.val) := by
  have hN : t.val < 256 := lt_of_lt_of_eq t.isLt (show cfg0.N = 256 from N_0)
  have hp := p.isLt
  have hq := q.isLt
  obtain ⟨e00, e01, e10, e11, e20, e21, e30, e31, e40, e41⟩ := idx_facts t
  rw [at2_of_lt _ _ _ (by omega) (by omega)]
  unfold iblk
  rw [View.read_apply]
  show (V m c main_v4 : S4096x4096.Idx → EReal) _ = (V m c main_v4 : S4096x4096.Idx → EReal) _
  congr 1
  funext a
  apply Fin.ext
  match a with
  | ⟨0, _⟩ => show win0_2.index t (0 : Fin 2) * 1024 + 1 * p.val = 1024 * (t.val / 8 % 4) + p.val; rw [e20]; omega
  | ⟨1, _⟩ => show win0_2.index t (1 : Fin 2) * 512 + 1 * q.val = 512 * (t.val % 8) + q.val; rw [e21]; omega

/-- The `Wt` block: entry `(p, q)` is entry `(1024·((t/8)%4) + p, 512·(t%8) + q)` of `Wt`. -/
theorem blk_wt (c : Dev nD) (t : Fin cfg0.N) (p : Fin 1024) (q : Fin 512) :
    (iblk m c 3 t (ix2 p q) : EReal)
      = at2 (V m c main_v5 : S4096x4096.Idx → EReal) (1024 * (t.val / 8 % 4) + p.val) (512 * (t.val % 8) + q.val) := by
  have hN : t.val < 256 := lt_of_lt_of_eq t.isLt (show cfg0.N = 256 from N_0)
  have hp := p.isLt
  have hq := q.isLt
  obtain ⟨e00, e01, e10, e11, e20, e21, e30, e31, e40, e41⟩ := idx_facts t
  rw [at2_of_lt _ _ _ (by omega) (by omega)]
  unfold iblk
  rw [View.read_apply]
  show (V m c main_v5 : S4096x4096.Idx → EReal) _ = (V m c main_v5 : S4096x4096.Idx → EReal) _
  congr 1
  funext a
  apply Fin.ext
  match a with
  | ⟨0, _⟩ => show win0_3.index t (0 : Fin 2) * 1024 + 1 * p.val = 1024 * (t.val / 8 % 4) + p.val; rw [e30]; omega
  | ⟨1, _⟩ => show win0_3.index t (1 : Fin 2) * 512 + 1 * q.val = 512 * (t.val % 8) + q.val; rw [e31]; omega

end Cert.KernelIdeal.Moe

end
-- ==== Proof.Sweep.lean ====
/-
  What the accumulator holds after every grid point, entry by entry, on the extended reals.

  One update at point `t` adds to entry `(r, o)` of the accumulator exactly the contribution of slab `t % 8` to
  entry `(2048·(t/32) + r, 1024·((t/8)%4) + o)` of the result (`point_apply`: the blocks are entries of the whole
  arrays, and `(a + u) + v = a + (u + v)`). A sweep starts from zeros and its 8 points share the row block and the
  output-column block, so after point `n` the accumulator holds the sum of the contributions of slabs `0 … n % 8`
  (`acc_apply`, by induction on the point), and after the last slab of a sweep the output block holds all 8.
-/
import proofs.«173502_j34789235097626_2_alg».proof.Proof.Chain
import proofs.«173502_j34789235097626_2_alg».proof.Proof.StepValue
import proofs.«173502_j34789235097626_2_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Moe

open Cert.KernelIdeal Cert.KernelIdeal.Gen Cert.MoeSpec

variable (m : (ℓ : Loc nD τ sig) → Buf (Elt Ideal) ℓ)

/-- The four arrays the region finds: the mask column as numbers, `x` as a 16384-row matrix, and the two weight
    matrices. -/
abbrev A0 (c : Dev nD) : S16384x1.Idx → EReal := V m c main_v3
abbrev A1 (c : Dev nD) : S16384x4096.Idx → EReal := V m c main_v1
abbrev A2 (c : Dev nD) : S4096x4096.Idx → EReal := V m c main_v4
abbrev A3 (c : Dev nD) : S4096x4096.Idx → EReal := V m c main_v5

/-- One update at point `t` adds slab `t % 8`'s contribution to the entry of the result the accumulator entry stands for. -/
theorem point_apply (c : Dev nD) (t : Fin cfg0.N) (a : FVec Ideal S2048x1024 .f32) (r : Fin 2048) (o : Fin 1024) :
    (step (F := Ideal) (iblk m c 0 t) (iblk m c 1 t) (iblk m c 2 t) (iblk m c 3 t) a (ix2 r o) : EReal)
      = a (ix2 r o) + slab (A0 m c) (A1 m c) (A2 m c) (A3 m c) (2048 * (t.val / 32) + r.val) (1024 * (t.val / 8 % 4) + o.val) (t.val % 8) := by
  refine (step_apply (iblk m c 0 t) (iblk m c 1 t) (iblk m c 2 t) (iblk m c 3 t) a r o).trans ?_
  rw [add_assoc]
  refine congrArg (a (ix2 r o) + ·) ?_
  unfold slab
  refine congrArg₂ (· + ·) (Finset.sum_congr rfl fun d _ => ?_) (Finset.sum_congr rfl fun d _ => ?_)
  · rw [blk_x m c t r d, blk_mask m c t r 0, blk_wv m c t o d] <;> rfl
  · rw [blk_x m c t r d, blk_mask m c t r 0, blk_wt m c t o d] <;> rfl

/-- At the first slab of a sweep: the one contribution of slab 0. -/
theorem acc_first_apply (c : Dev nD) (t : Fin cfg0.N) (h0 : t.val % 8 = 0) (r : Fin 2048) (o : Fin 1024) :
    ((outsAt0 m c t.val t.isLt).2 (ix2 r o) : EReal)
      = ∑ k ∈ Finset.range (t.val % 8 + 1), slab (A0 m c) (A1 m c) (A2 m c) (A3 m c) (2048 * (t.val / 32) + r.val) (1024 * (t.val / 8 % 4) + o.val) k := by
  refine (congrFun (acc_first m c t h0) (ix2 r o)).trans ?_
  refine (point_apply m c t (zeros (F := Ideal)) r o).trans ?_
  rw [zeros_apply, zero_add, h0, Finset.sum_range_succ, Finset.sum_range_zero, zero_add]

/-- At a later slab: the point before's sum and this slab's contribution (the two points share their row block and
    their output-column block). -/
theorem acc_next_apply (c : Dev nD) (t : Fin cfg0.N) (h0 : ¬t.val % 8 = 0) (r : Fin 2048) (o : Fin 1024)
    (ih : ((outsAt0 m c (t.val - 1) (Nat.lt_of_le_of_lt (Nat.sub_le _ _) t.isLt)).2 (ix2 r o) : EReal)
      = ∑ k ∈ Finset.range ((t.val - 1) % 8 + 1), slab (A0 m c) (A1 m c) (A2 m c) (A3 m c) (2048 * ((t.val - 1) / 32) + r.val) (1024 * ((t.val - 1) / 8 % 4) + o.val) k) :
    ((outsAt0 m c t.val t.isLt).2 (ix2 r o) : EReal)
      = ∑ k ∈ Finset.range (t.val % 8 + 1), slab (A0 m c) (A1 m c) (A2 m c) (A3 m c) (2048 * (t.val / 32) + r.val) (1024 * (t.val / 8 % 4) + o.val) k := by
  refine (congrFun (acc_next m c t h0) (ix2 r o)).trans ?_
  refine (point_apply m c t _ r o).trans ?_
  rw [ih]
  have e1 : (t.val - 1) / 32 = t.val / 32 := by omega
  have e2 : (t.val - 1) / 8 % 4 = t.val / 8 % 4 := by omega
  have e3 : t.val % 8 = (t.val - 1) % 8 + 1 := by omega
  rw [e1, e2, e3]
  exact (Finset.sum_range_succ _ _).symm

/-- After point `n` the accumulator's entry `(r, o)` is the sum of the contributions of slabs `0 … n % 8`. -/
theorem acc_apply (c : Dev nD) : ∀ (n : ℕ) (h : n < cfg0.N) (r : Fin 2048) (o : Fin 1024),
    ((outsAt0 m c n h).2 (ix2 r o) : EReal)
      = ∑ k ∈ Finset.range (n % 8 + 1), slab (A0 m c) (A1 m c) (A2 m c) (A3 m c) (2048 * (n / 32) + r.val) (1024 * (n / 8 % 4) + o.val) k
  | 0, h, r, o => acc_first_apply m c ⟨0, h⟩ (Nat.zero_mod 8) r o
  | n + 1, h, r, o => by
    by_cases h0 : (n + 1) % 8 = 0
    · exact acc_first_apply m c ⟨n + 1, h⟩ h0 r o
    · exact acc_next_apply m c ⟨n + 1, h⟩ h0 r o (acc_apply c n (Nat.lt_of_succ_lt h) r o)

/-- After the last slab of a sweep the output block's entry `(r, o)` is the sum of all 8 slabs' contributions. -/
theorem out_apply (c : Dev nD) (t : Fin cfg0.N) (h7 : t.val % 8 = 7) (r : Fin 2048) (o : Fin 1024) :
    ((outsAt0 m c t.val t.isLt).1 (ix2 r o) : EReal)
      = ∑ k ∈ Finset.range 8, slab (A0 m c) (A1 m c) (A2 m c) (A3 m c) (2048 * (t.val / 32) + r.val) (1024 * (t.val / 8 % 4) + o.val) k := by
  have h0 : ¬t.val % 8 = 0 := by omega
  have e : (outsAt0 m c t.val t.isLt).1 = (outsAt0 m c t.val t.isLt).2 := (out_last m c t h7).trans (acc_next m c t h0).symm
  rw [e, acc_apply m c t.val t.isLt r o, h7]

end Cert.KernelIdeal.Moe

end
-- ==== Proof.Final.lean ====
/-
  The output array after the whole grid.

  The point that ends a sweep (`t % 8 = 7`) writes its output block back, and that block holds, entry by entry, the
  sum of the 8 slabs' contributions: it is the block of ONE function of the whole arrays, the tiled product
  (`result`), at rows `2048·(t/32) …` and columns `1024·((t/8)%4) …`. Entry `(R, O)` of the output array lies in the
  block written by the point with row block `R / 2048`, output-column block `O / 1024` and slab 7. So the written
  blocks cover the array and it ends holding the tiled product.
-/
import proofs.«173502_j34789235097626_2_alg».proof.Proof.Sweep

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Moe

open Cert.KernelIdeal Cert.KernelIdeal.Gen Cert.MoeSpec

variable (m : (ℓ : Loc nD τ sig) → Buf (Elt Ideal) ℓ)

/-- The tiled product of the four arrays the region finds: what the output array ends holding. -/
abbrev result (c : Dev nD) : S16384x4096.Idx → EReal := tiled (A0 m c) (A1 m c) (A2 m c) (A3 m c)

/-- The output block after the last slab of a sweep, at any entry `j` of the block. -/
theorem out_apply_idx (c : Dev nD) (t : Fin cfg0.N) (h7 : t.val % 8 = 7) (j : S2048x1024.Idx) :
    ((outsAt0 m c t.val t.isLt).1 j : EReal)
      = ∑ k ∈ Finset.range 8, slab (A0 m c) (A1 m c) (A2 m c) (A3 m c) (2048 * (t.val / 32) + (j 0).val) (1024 * (t.val / 8 % 4) + (j 1).val) k := by
  obtain ⟨r, o, rfl⟩ : ∃ (r : Fin 2048) (o : Fin 1024), j = ix2 r o := ⟨j 0, j 1, eq_ix2 j⟩
  exact out_apply m c t h7 r o

/-- What a point that writes back writes: its block of the tiled product. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : t.val < 256 := lt_of_lt_of_eq t.isLt (show cfg0.N = 256 from N_0)
  obtain ⟨-, -, -, -, -, -, -, -, e40, e41⟩ := idx_facts t
  show (cfg0.win 4).cut (grid0.coords t) ((dats m 0 c).after 4 t) = _
  rw [after0_4]
  funext j
  rw [View.read_apply]
  refine (out_apply_idx m c t h7 j).trans ?_
  show _ = ∑ k ∈ Finset.range 8, slab (A0 m c) (A1 m c) (A2 m c) (A3 m c) ((((cfg0.win 4).blk t).view.emb j) 0).val ((((cfg0.win 4).blk t).view.emb j) 1).val k
  have c0 : ((((cfg0.win 4).blk t).view.emb j) 0).val = 2048 * (t.val / 32) + (j 0).val := by
    show win0_4.index t (0 : Fin 2) * 2048 + 1 * (j 0).val = _
    rw [e40]; omega
  have c1 : ((((cfg0.win 4).blk t).view.emb j) 1).val = 1024 * (t.val / 8 % 4) + (j 1).val := by
    show win0_4.index t (1 : Fin 2) * 1024 + 1 * (j 1).val = _
    rw [e41]; omega
  rw [c0, c1]

/-- An entry of the output array is in point `t`'s block iff each coordinate is in the block's range on its axis. -/
theorem mem_blk (t : Fin cfg0.N) (i : S16384x4096.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v6).slice (win0_4.rect t)).set ↔ _
  rw [View.set_slice_whole, Rect.mem_set_unit]
  exact Iff.rfl

/-- Every entry of the output array is in the block some sweep's last point writes back. -/
theorem covered (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  have hN : cfg0.N = 256 := N_0
  obtain ⟨tv, htv⟩ : ∃ tv : ℕ, tv = 32 * ((i 0).val / 2048) + 8 * ((i 1).val / 1024) + 7 := ⟨_, rfl⟩
  have ht : tv < cfg0.N := by rw [hN]; omega
  obtain ⟨-, -, -, -, -, -, -, -, e40, e41⟩ := idx_facts ⟨tv, ht⟩
  have e40' : win0_4.index ⟨tv, ht⟩ (0 : Fin 2) = tv / 32 := e40
  have e41' : win0_4.index ⟨tv, ht⟩ (1 : Fin 2) = tv / 8 % 4 := e41
  refine ⟨⟨tv, ht⟩, (flush0_4 ⟨tv, ht⟩).mpr (by show tv % 8 = 7; omega), ?_⟩
  rw [mem_blk]
  intro a
  match a with
  | ⟨0, _⟩ =>
    show win0_4.index ⟨tv, ht⟩ (0 : Fin 2) * 2048 ≤ (i 0).val ∧ (i 0).val < win0_4.index ⟨tv, ht⟩ (0 : Fin 2) * 2048 + 2048
    rw [e40']; omega
  | ⟨1, _⟩ =>
    show win0_4.index ⟨tv, ht⟩ (1 : Fin 2) * 1024 ≤ (i 1).val ∧ (i 1).val < win0_4.index ⟨tv, ht⟩ (1 : Fin 2) * 1024 + 1024
    rw [e41']; omega

/-- The output array ends holding the tiled product. -/
theorem final (c : Dev nD) : (dats m 0 c).arrAt 4 cfg0.N = result m c :=
  (dats m 0 c).arrAt_eq_of_cover 4 (result m c) (flushed_eq m c) covered

end Cert.KernelIdeal.Moe

end
-- ==== Proof.Host.lean ====
/-
  What the host operations around the region read and write, at the ideal numbers.

  Before the region the program reshapes `x` from [4, 4096, 4096] to 16384 rows of 4096, reshapes the mask from
  [4, 4096] to a column of 16384 entries and converts each bit to the number 0 or 1, and narrows `x` and the two
  weight matrices to the shorter float format. At the ideal numbers narrowing is the identity, so the region finds
  `x` reshaped, the mask column read as a number, and the two weight matrices as launched. After the region the one
  remaining operation reshapes the region's output array, 16384 rows of 4096, back to [4, 4096, 4096].
-/
import proofs.«173502_j34789235097626_2_alg».proof.Proof.Gen.KernelIdeal.Frame
import Idealize.ShloMosaic.Lib.Pipeline.Value
import Idealize.ShloMosaic.Lib.StableHlo.Run
import Idealize.ShloMosaic.Lib.Tactic
import Idealize.ShloMosaic.PureOps.Ideal

noncomputable section

namespace Cert.KernelIdeal.MoeHost

open Cert.KernelIdeal Cert.KernelIdeal.Gen
open Idealize.ShloMosaic Idealize.ShloMosaic.TcCoe Idealize.SL.Sem

variable (m : (ℓ : Loc nD τ sig) → Buf (Elt Ideal) ℓ)

/-! ## Before the region -/

/-- The region finds `x` reshaped to 16384 rows of 4096: the reshape, then a narrowing that is the identity at the
    ideal numbers. -/
theorem V_v1 (c : Dev nD) : (V m c main_v1 : S16384x4096.Idx → EReal)
    = shapeCast S16384x4096 (m ((c : Thread nD τ).loc main_arg0)) shapeCasts_S4x4096x4096_S16384x4096 := by
  show StableHlo.after hostOps0 (fun b => m (c, b)) (Proc.devRef .tc main_v1) = _
  after_results
  rfl

/-- The region finds the mask reshaped to a column of 16384 entries, each bit read as the number 0 or 1. -/
theorem V_v3 (c : Dev nD) : (V m c main_v3 : S16384x1.Idx → EReal)
    = fun j => (((shapeCast S16384x1 (m ((c : Thread nD τ).loc main_arg1)) shapeCasts_S4x4096_S16384x1 j).toNat : ℝ) : EReal) := by
  show StableHlo.after hostOps0 (fun b => m (c, b)) (Proc.devRef .tc main_v3) = _
  after_results
  rfl

/-- The region finds the first weight matrix as launched: its narrowing is the identity at the ideal numbers. -/
theorem V_v4 (c : Dev nD) : (V m c main_v4 : S4096x4096.Idx → EReal) = m ((c : Thread nD τ).loc main_arg2) := by
  show StableHlo.after hostOps0 (fun b => m (c, b)) (Proc.devRef .tc main_v4) = _
  after_results
  rfl

/-- The region finds the second weight matrix as launched: its narrowing is the identity at the ideal numbers. -/
theorem V_v5 (c : Dev nD) : (V m c main_v5 : S4096x4096.Idx → EReal) = m ((c : Thread nD τ).loc main_arg3) := by
  show StableHlo.after hostOps0 (fun b => m (c, b)) (Proc.devRef .tc main_v5) = _
  after_results
  rfl

/-! ## After the region -/

/-- The result buffer after the region is the region's output array, whatever function `G` it holds, reshaped to
    [4, 4096, 4096]: the one operation after the region reads the output array, which the region leaves at what it
    computed, and writes its reshape. -/
theorem tail_v7 (c : Dev nD) (G : S16384x4096.Idx → EReal) (hG : (dats m 0 c).arrAt 4 cfg0.N = G) :
    (Pipeline.afterTail₀ cfgs (dats m) 0 (V0 m) [hostOps1] c main_v7 : S4x4096x4096.Idx → EReal)
      = shapeCast S4x4096x4096 G shapeCasts_S16384x4096_S4x4096x4096 := by
  unfold Pipeline.afterTail₀
  show StableHlo.after hostOps1 _ (Proc.devRef .tc main_v7) = _
  after_results
  have e : Pipeline.withArrays (cfgs 0).spec c (V0 m c) (fun w => (dats m 0 c).arrAt w (cfgs 0).N)
      (Proc.devRef .tc main_v6) = G :=
    (Pipeline.withArrays_arr spec0 launch0.win.arr_inj c (V0 m c) (fun w => (dats m 0 c).arrAt w cfg0.N) 4).trans hG
  rw [e]
  rfl

/-! ## The run -/

/-- Every run ends with the result buffer at what the operation after the region leaves there, and with the four
    argument arrays as launched. -/
theorem post_v7 (ρ : Dev nD → PrngReg) :
    θ_run defs (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The same with the output array named: if on every core the region leaves its output array at `G c`, every run
    ends with the result buffer at `G c` reshaped to [4, 4096, 4096] and the four argument arrays as launched. -/
theorem post_v7_of (ρ : Dev nD → PrngReg) (G : Dev nD → S16384x4096.Idx → EReal)
    (hG : ∀ c : Dev nD, (dats m 0 c).arrAt 4 cfg0.N = G c) :
    θ_run defs (onTc (τ := τ) (main (F := Ideal))) ⟨m, fun _ => 0, ρ⟩ (fun r => ∀ c : Dev nD,
      (r.2.mem ((c.tc : Thread nD τ).loc main_v7) : S4x4096x4096.Idx → EReal)
        = shapeCast S4x4096x4096 (G c) shapeCasts_S16384x4096_S4x4096x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (tail_v7 m c (G c) (hG c)), (h c).2⟩) (post_v7 m ρ)

end Cert.KernelIdeal.MoeHost

end
-- ==== Proof.Bridge.lean ====
/-
  The slab-wise product on the flattened rows, reshaped back, is the routed product.

  `x` of shape `[4, 4096, 4096]` flattened to `16384` rows has its row `(b, s)` at row `4096·b + s`; the mask of
  shape `[4, 4096]` flattened to a `16384 × 1` column has the bit of `(b, s)` at the same row. Reading the three
  reshapes at explicit coordinates turns entry `(b, s, o)` of the reshaped slab-wise product into the slab-wise sum
  for the row `x[b, s, ·]`, the bit of `(b, s)`, and the rows `Wv[o, ·]`, `Wt[o, ·]`; the law of the slab-wise sum
  then gives the selection between the two whole products, which is the routed product's entry.
-/
import Idealize.ShloMosaic.Lib.ValueIdx
import Idealize.ShloMosaic.Lib.Pipeline.Value
import Idealize.ShloMosaic.PureOps.Ideal.Laws
import proofs.«173502_j34789235097626_2_alg».proof.Proof.Spec

noncomputable section

namespace Cert.MoeBridge

open Idealize.ShloMosaic Idealize.ShloMosaic.ValueIdx Cert.MoeSpec

/-- A row of length `n` as a function of a natural-number coordinate; zero past the end. -/
def rowOf {n : ℕ} (f : Fin n → EReal) (D : ℕ) : EReal := if h : D < n then f ⟨D, h⟩ else 0

theorem rowOf_val {n : ℕ} (f : Fin n → EReal) (D : Fin n) : rowOf f D.val = f D := dif_pos D.isLt

/-- A row of real numbers, extended by zero, is a row of real numbers. -/
theorem rowOf_real {n : ℕ} (f : Fin n → EReal) (hf : ∀ c, ∃ r : ℝ, f c = (r : EReal)) (D : ℕ) :
    ∃ r : ℝ, rowOf f D = (r : EReal) := by
  unfold rowOf
  by_cases h : D < n
  · rw [dif_pos h]; exact hf _
  · rw [dif_neg h]; exact ⟨0, EReal.coe_zero.symm⟩

/-- Row `R` of a matrix, read at natural-number coordinates, is that row extended by zero. -/
theorem at2_eq_rowOf {n0 n1 : ℕ} (A : (⟨2, ![n0, n1]⟩ : Shape).Idx → EReal) (R D : ℕ) (hR : R < n0) :
    at2 A R D = rowOf (fun c : Fin n1 => A (ix2 ⟨R, hR⟩ c)) D := by
  unfold at2 rowOf
  by_cases h : D < n1
  · rw [dif_pos ⟨hR, h⟩, dif_pos h]
  · rw [dif_neg (fun hh => h hh.2), dif_neg h]

variable {α : Type}

/-- `[4, 4096, 4096]` flattened to `16384` rows: row `4096·b + s`, column `D` is entry `(b, s, D)`. -/
theorem cast_rows_apply (x : (⟨3, ![4, 4096, 4096]⟩ : Shape).Idx → α)
    (h1 : (⟨3, ![4, 4096, 4096]⟩ : Shape).ShapeCasts ⟨2, ![16384, 4096]⟩) (b : Fin 4) (s D : Fin 4096)
    (hR : 4096 * b.val + s.val < 16384) :
    shapeCast ⟨2, ![16384, 4096]⟩ x h1 (ix2 ⟨4096 * b.val + s.val, hR⟩ D) = x (ix3 b s D) :=
  shapeCast_apply x h1 _ _ (by
    rw [Shape.rowMajor_val_two, Shape.rowMajor_val_three]
    show (b.val * 4096 + s.val) * 4096 + D.val = (4096 * b.val + s.val) * 4096 + D.val
    omega)

/-- `[4, 4096]` flattened to a `16384 × 1` column: row `4096·b + s` is entry `(b, s)`. -/
theorem cast_col_apply (mk : (⟨2, ![4, 4096]⟩ : Shape).Idx → α)
    (h2 : (⟨2, ![4, 4096]⟩ : Shape).ShapeCasts ⟨2, ![16384, 1]⟩) (b : Fin 4) (s : Fin 4096) (u : Fin 1)
    (hR : 4096 * b.val + s.val < 16384) :
    shapeCast ⟨2, ![16384, 1]⟩ mk h2 (ix2 ⟨4096 * b.val + s.val, hR⟩ u) = mk (ix2 b s) :=
  shapeCast_apply mk h2 _ _ (by
    have hu : u.val = 0 := by omega
    rw [Shape.rowMajor_val_two, Shape.rowMajor_val_two]
    show b.val * 4096 + s.val = (4096 * b.val + s.val) * 1 + u.val
    omega)

/-- `16384` rows folded back to `[4, 4096, 4096]`: entry `(b, s, o)` is row `4096·b + s`, column `o`. -/
theorem cast_back_apply (T : (⟨2, ![16384, 4096]⟩ : Shape).Idx → α)
    (h3 : (⟨2, ![16384, 4096]⟩ : Shape).ShapeCasts ⟨3, ![4, 4096, 4096]⟩) (b : Fin 4) (s o : Fin 4096)
    (hR : 4096 * b.val + s.val < 16384) :
    shapeCast ⟨3, ![4, 4096, 4096]⟩ T h3 (ix3 b s o) = T (ix2 ⟨4096 * b.val + s.val, hR⟩ o) :=
  shapeCast_apply T h3 _ _ (by
    rw [Shape.rowMajor_val_two, Shape.rowMajor_val_three]
    show (4096 * b.val + s.val) * 4096 + o.val = (b.val * 4096 + s.val) * 4096 + o.val
    omega)

/-- The slab-wise product of the flattened operands, folded back, is the routed product, when every entry of `x`
    is a real number. -/
theorem tiled_eq_routed
    (x : (⟨3, ![4, 4096, 4096]⟩ : Shape).Idx → EReal) (mk : (⟨2, ![4, 4096]⟩ : Shape).Idx → BitVec 1)
    (wv wt : (⟨2, ![4096, 4096]⟩ : Shape).Idx → EReal)
    (h1 : (⟨3, ![4, 4096, 4096]⟩ : Shape).ShapeCasts ⟨2, ![16384, 4096]⟩)
    (h2 : (⟨2, ![4, 4096]⟩ : Shape).ShapeCasts ⟨2, ![16384, 1]⟩)
    (h3 : (⟨2, ![16384, 4096]⟩ : Shape).ShapeCasts ⟨3, ![4, 4096, 4096]⟩)
    (hx : ∀ i, ∃ r : ℝ, x i = (r : EReal)) :
    shapeCast ⟨3, ![4, 4096, 4096]⟩
        (tiled (fun j => (((shapeCast ⟨2, ![16384, 1]⟩ mk h2 j).toNat : ℝ) : EReal))
          (shapeCast ⟨2, ![16384, 4096]⟩ x h1) wv wt) h3
      = routed x mk wv wt := by
  funext i
  obtain ⟨b, s, o, rfl⟩ : ∃ b s o, i = ix3 b s o := ⟨i 0, i 1, i 2, eq_ix3 i⟩
  have hR : 4096 * b.val + s.val < 16384 := by
    have := b.isLt; have := s.isLt; omega
  rw [cast_back_apply _ h3 b s o hR]
  -- the row of `x`, the bit, and the two weight rows this entry reads
  have hX : ∀ D, at2 (shapeCast ⟨2, ![16384, 4096]⟩ x h1) (4096 * b.val + s.val) D
      = rowOf (fun c : Fin 4096 => x (ix3 b s c)) D := fun D =>
    (at2_eq_rowOf _ _ D hR).trans
      (congrArg (fun f => rowOf f D) (funext fun c => cast_rows_apply x h1 b s c hR))
  have hM : at2 (fun j => (((shapeCast ⟨2, ![16384, 1]⟩ mk h2 j).toNat : ℝ) : EReal)) (4096 * b.val + s.val) 0
      = (((mk (ix2 b s)).toNat : ℝ) : EReal) := by
    rw [at2_of_lt _ _ _ hR Nat.one_pos]
    show (((shapeCast ⟨2, ![16384, 1]⟩ mk h2 (ix2 ⟨4096 * b.val + s.val, hR⟩ ⟨0, Nat.one_pos⟩)).toNat : ℝ) : EReal) = _
    rw [cast_col_apply mk h2 b s _ hR]
  have hV : ∀ D, at2 wv o.val D = rowOf (fun c : Fin 4096 => wv (ix2 o c)) D := fun D => at2_eq_rowOf wv o.val D o.isLt
  have hT : ∀ D, at2 wt o.val D = rowOf (fun c : Fin 4096 => wt (ix2 o c)) D := fun D => at2_eq_rowOf wt o.val D o.isLt
  show ∑ k ∈ Finset.range 8, slab (fun j => (((shapeCast ⟨2, ![16384, 1]⟩ mk h2 j).toNat : ℝ) : EReal))
      (shapeCast ⟨2, ![16384, 4096]⟩ x h1) wv wt (4096 * b.val + s.val) o.val k = _
  unfold slab
  simp only [hX, hM, hV, hT]
  rw [slabs_eq_select (mk (ix2 b s)) _ _ _ (rowOf_real _ fun c => hx (ix3 b s c))]
  simp only [rowOf_val]
  rfl

end Cert.MoeBridge

end
-- ==== Proof.RefRead.lean ====
/-
  The reference program read entry by entry is the routed product.

  The reference multiplies `x` against both weight matrices, spreads the mask along the output columns, and picks,
  entry by entry, the product with `Wv` where the mask bit of the row is set and the product with `Wt` where it is
  not. Each operand index the reference reads at is the index built from the same coordinates, so the entry at
  `(b, s, o)` is the selection by the mask bit of `(b, s)` between the two sums over the contracted coordinate.
-/
import proofs.«173502_j34789235097626_2_alg».proof.Defs
import proofs.«173502_j34789235097626_2_alg».proof.Proof.Gen.ReferenceIdeal.Read
import proofs.«173502_j34789235097626_2_alg».proof.Proof.Spec

noncomputable section

namespace Cert.MoeRef

open Cert.ReferenceIdeal Cert.ReferenceIdeal.Read Idealize.ShloMosaic Idealize.ShloMosaic.ValueIdx

/-- The mask is read, through its two spreadings, at the row's own coordinates. -/
theorem idx_mask (i : S4x4096x4096.Idx) : idx_main_v2 (idx_main_call0_v0 i) = ix2 (i 0) (i 1) :=
  funext fun a => Fin.ext (by match a with | ⟨0, _⟩ => rfl | ⟨1, _⟩ => rfl)

/-- The left operand of the product with `Wv` is read at `(b, s, k)`. -/
theorem lidx_v0 (i : S4x4096x4096.Idx) (k : Fin 4096) : lidx_main_v0 i k = ix3 (i 0) (i 1) k :=
  funext fun a => Fin.ext (by match a with | ⟨0, _⟩ => rfl | ⟨1, _⟩ => rfl | ⟨2, _⟩ => rfl)

/-- The right operand of the product with `Wv` is read at `(o, k)`. -/
theorem ridx_v0 (i : S4x4096x4096.Idx) (k : Fin 4096) : ridx_main_v0 i k = ix2 (i 2) k :=
  funext fun a => Fin.ext (by match a with | ⟨0, _⟩ => rfl | ⟨1, _⟩ => rfl)

/-- The left operand of the product with `Wt` is read at `(b, s, k)`. -/
theorem lidx_v1 (i : S4x4096x4096.Idx) (k : Fin 4096) : lidx_main_v1 i k = ix3 (i 0) (i 1) k :=
  funext fun a => Fin.ext (by match a with | ⟨0, _⟩ => rfl | ⟨1, _⟩ => rfl | ⟨2, _⟩ => rfl)

/-- The right operand of the product with `Wt` is read at `(o, k)`. -/
theorem ridx_v1 (i : S4x4096x4096.Idx) (k : Fin 4096) : ridx_main_v1 i k = ix2 (i 2) k :=
  funext fun a => Fin.ext (by match a with | ⟨0, _⟩ => rfl | ⟨1, _⟩ => rfl)

/-- The reference's result is the routed product. -/
theorem ref_eq (x : (⟨S4x4096x4096, .f32⟩ : BufTy).Contents (Elt Ideal)) (mk : (⟨S4x4096, .i1⟩ : BufTy).Contents (Elt Ideal))
    (wv wt : (⟨S4096x4096, .f32⟩ : BufTy).Contents (Elt Ideal)) :
    val_main_v3 (F := Ideal) x mk wv wt = Cert.MoeSpec.routed x mk wv wt := by
  funext i
  rw [val_main_v3_apply, val_main_call0_v0_apply, val_main_v2_apply, val_main_v0_apply, val_main_v1_apply]
  simp only [idx_mask, lidx_v0, ridx_v0, lidx_v1, ridx_v1]
  rfl

end Cert.MoeRef

end
-- ==== Proof.Finite.lean ====
/-
  From the precondition to real numbers.

  The precondition is the conjunction of three statements, one per float input: every entry's absolute value is
  strictly below `+∞`. On the extended reals the absolute value of `a` is `max a (−a)`, and it is below `+∞` only when
  `a` is neither `+∞` nor `−∞`, that is, when `a` is a real number. Only the statement about `x` is needed: the law that
  joins the kernel and the reference subtracts an entry of `x` from itself, which is zero for a real number only.
-/
import proofs.«173502_j34789235097626_2_alg».proof.Pre_finite_inputs
import Idealize.ShloMosaic.PureOps.Ideal.Laws
import Idealize.ShloMosaic.Lib.ReduceAll
import Idealize.ShloMosaic.Lib.ValueIdx

open Idealize.ShloMosaic

namespace Cert.MoeFinite

/-- The scalar shape has exactly one index. -/
instance : Subsingleton Cert.Pre_finite_inputs.S_.Idx := ⟨fun a b => funext fun d => d.elim0⟩

/-- The f32 word `0x7F800000` (sign 0, exponent all ones, fraction 0) is `+∞` among the extended reals. -/
theorem inf_bits : Ideal.ofBits .f32 0x7F800000#32 = (⊤ : EReal) := by
  simp [Ideal.ofBits, Ideal.ieee]

/-- An extended real whose absolute value `max a (-a)` is strictly below `+∞` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The ordered comparison "less than" of two extended reals gives the bit 1 only when the first is strictly below the second. -/
theorem lt_of_cmp_olt (a b : EReal) (h : Ideal.cmp .olt a b = 1#1) : a < b := by
  by_contra hn
  simp [Ideal.cmp, hn] at h

/-- The precondition says that each entry of `x` has absolute value strictly below `+∞`; hence each entry of `x` is a
    real number. -/
theorem x_real [Cert.Pre_finite_inputs.Facts]
    (x : FVec Ideal Cert.Pre_finite_inputs.S4x4096x4096 .f32) (mk : IVec Cert.Pre_finite_inputs.S4x4096 1)
    (wv wt : FVec Ideal Cert.Pre_finite_inputs.S4096x4096 .f32)
    (h : Cert.Pre_finite_inputs.fn (F := Ideal) x mk wv wt = fun _ => 1#1) :
    ∀ i : Cert.Pre_finite_inputs.S4x4096x4096.Idx, ∃ r : ℝ, x i = (r : EReal) := by
  intro i
  have h0 := congrFun h ValueIdx.ix0
  dsimp only [Cert.Pre_finite_inputs.fn, andi] at h0
  obtain ⟨h1, -⟩ := IntOp.andi_eq_one.1 h0
  obtain ⟨hx, -⟩ := IntOp.andi_eq_one.1 h1
  have hi := Host.reduce_andi_all _ _ _ _ _ hx i
  have hc : Ideal.cmp .olt (max (x i) (-(x i))) (Ideal.ofBits .f32 0x7F800000#32) = 1#1 := hi
  rw [inf_bits] at hc
  exact real_of_abs_lt_top (x i) (lt_of_cmp_olt _ _ hc)

end Cert.MoeFinite
-- ==== Proof.lean ====
/-
  A mask-routed pair of linear maps: the tiled kernel against the routed reference.

  Every row `(b, s)` of `x` (4 × 4096 rows of 4096 numbers) is multiplied against the rows of `Wv` where its mask bit
  is set and of `Wt` where it is not. The reference forms both products and selects. The kernel folds the bit
  `μ ∈ {0, 1}` into the row first — `x·μ` goes against `Wv`, the remainder `x − x·μ` against `Wt` — and accumulates
  the 4096 contracted columns in 8 slabs of 512, one grid point per slab, into one block of the output.

  The two agree entry by entry on the extended reals when every entry of `x` is a real number, which the
  precondition gives: for `μ = 1` the remainder is `x − x = 0`, for `μ = 0` the masked row is `x·0 = 0`, a zero
  factor annihilates whatever the weight is, and consecutive slabs of a sum add up to the whole sum. (An infinite
  entry of `x` would make `x − x` meaningless: that is where finiteness is used, and the only place.)

  The road: what one grid point leaves in the accumulator (`Moe.step`), read at an entry as the slab's contribution;
  by induction over the grid, the output array ends holding the tiled product (`Moe.final`); the operations around
  the region only reshape and change float format, which on the extended reals is the identity (`MoeHost`); the
  reference read back is the routed product (`MoeRef.ref_eq`); and the tiled product of the reshaped arrays,
  reshaped back, is the routed product (`MoeBridge.tiled_eq_routed`). The ideal pass rewrote nothing, so the
  idealization claim has no conjunct. The three frame claims are the generated runs.
-/
import proofs.«173502_j34789235097626_2_alg».proof.Defs
import proofs.«173502_j34789235097626_2_alg».proof.Proof.Gen.Kernel
import proofs.«173502_j34789235097626_2_alg».proof.Proof.Gen.Kernel.Skeleton
import proofs.«173502_j34789235097626_2_alg».proof.Proof.Gen.Kernel.Launch
import proofs.«173502_j34789235097626_2_alg».proof.Proof.Gen.Kernel.Points
import proofs.«173502_j34789235097626_2_alg».proof.Proof.Gen.Kernel.Frame
import proofs.«173502_j34789235097626_2_alg».proof.Proof.Gen.KernelIdeal
import proofs.«173502_j34789235097626_2_alg».proof.Proof.Gen.KernelIdeal.Skeleton
import proofs.«173502_j34789235097626_2_alg».proof.Proof.Gen.KernelIdeal.Launch
import proofs.«173502_j34789235097626_2_alg».proof.Proof.Gen.KernelIdeal.Points
import proofs.«173502_j34789235097626_2_alg».proof.Proof.Gen.KernelIdeal.Frame
import proofs.«173502_j34789235097626_2_alg».proof.Proof.Gen.ReferenceIdeal
import proofs.«173502_j34789235097626_2_alg».proof.Proof.Gen.ReferenceIdeal.Run
import proofs.«173502_j34789235097626_2_alg».proof.Proof.Gen.ReferenceIdeal.Read
import proofs.«173502_j34789235097626_2_alg».proof.Proof.Gen.Pre_finite_inputs
import proofs.«173502_j34789235097626_2_alg».proof.Proof.Final
import proofs.«173502_j34789235097626_2_alg».proof.Proof.Host
import proofs.«173502_j34789235097626_2_alg».proof.Proof.Bridge
import proofs.«173502_j34789235097626_2_alg».proof.Proof.RefRead
import proofs.«173502_j34789235097626_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to state. -/
theorem preserves : Cert.preserves_Kernel_KernelIdeal := trivial

/-- The kernel's result on core `c`: the tiled product of the arrays the region finds, reshaped to [4, 4096, 4096],
    is the routed product of the arguments — when the precondition holds, so that every entry of `x` is real. -/
theorem result_routed (m : (ℓ : Loc Cert.KernelIdeal.nD Cert.KernelIdeal.τ Cert.KernelIdeal.sig) → Buf (Elt Ideal) ℓ)
    (hpre : Cert.Pre_KernelIdeal m) (c : Dev Cert.KernelIdeal.nD) :
    shapeCast Cert.KernelIdeal.S4x4096x4096 (Cert.KernelIdeal.Moe.result m c) Cert.KernelIdeal.Facts₀.shapeCasts_S16384x4096_S4x4096x4096
      = Cert.MoeSpec.routed (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  unfold Cert.KernelIdeal.Moe.result Cert.KernelIdeal.Moe.A0 Cert.KernelIdeal.Moe.A1 Cert.KernelIdeal.Moe.A2 Cert.KernelIdeal.Moe.A3
  rw [Cert.KernelIdeal.MoeHost.V_v1 m c, Cert.KernelIdeal.MoeHost.V_v3 m c, Cert.KernelIdeal.MoeHost.V_v4 m c,
    Cert.KernelIdeal.MoeHost.V_v5 m c]
  exact Cert.MoeBridge.tiled_eq_routed _ _ _ _ _ _ _ (Cert.MoeFinite.x_real _ _ _ _ (hpre c))

/-- Both idealized programs end with the routed product of the arguments. -/
theorem algebraic : Cert.algebraic_KernelIdeal_ReferenceIdeal := by
  intro m ρ m' ρ' hpre hagree
  refine ⟨fun c => Cert.MoeSpec.routed (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun _ h c => ⟨(h c).1.trans (result_routed m hpre c), (h c).2⟩)
      (Cert.KernelIdeal.MoeHost.post_v7_of m ρ (fun c => Cert.KernelIdeal.Moe.result m c) (Cert.KernelIdeal.Moe.final m))
  · refine (θ_run Cert.ReferenceIdeal.defs _ _).mono (fun _ h c => ⟨?_, (h c).2⟩)
      (Cert.ReferenceIdeal.Value.run (F := Ideal) m' ρ')
    rw [(h c).1, Cert.ReferenceIdeal.Read.val_main_v3_eq, Cert.MoeRef.ref_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
